-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S8128x4096 : Shape := ⟨2, ![8128, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8128x4096 : S_.BroadcastsInDim S8128x4096 (![] : Fin 0 → Fin S8128x4096.rank)
  reducesTo_S8128x4096_S_d0_1 : S8128x4096.ReducesTo [0, 1] S_

variable [Facts]

def fn {F : FTy → Type} [FloatOps F] (main_arg0 : FVec F S4096x4096 .f32) (main_arg1 : FVec F S8128x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S8128x4096 .f32 := Host.absf main_arg1
  let main_cst_0 : FVec F S_ .f32 := constant S_ .f32 0x7F800000#32
  let main_v5 : FVec F S8128x4096 .f32 := broadcastInDim S8128x4096 ![] bcast_S_S8128x4096 main_cst_0
  let main_v6 : IVec S8128x4096 1 := cmpf .olt main_v4 main_v5
  let main_c_1 : IVec S_ 1 := constantI S_ 1 1#1
  let main_v7 : IVec S_ 1 := (fun x v => Host.reduce IntOp.andi x v reducesTo_S8128x4096_S_d0_1 h_S_) main_v6 main_c_1
  let main_v8 : IVec S_ 1 := andi main_v3 main_v7
  main_v8
-- ==== Kernel.lean ====
abbrev S4096x4096 : Shape := ⟨2, ![4096, 4096]⟩
abbrev S8128x4096 : Shape := ⟨2, ![8128, 4096]⟩
abbrev S_ : Shape := ⟨0, ![]⟩
abbrev S8192x4096 : Shape := ⟨2, ![8192, 4096]⟩
abbrev S4096x8192 : Shape := ⟨2, ![4096, 8192]⟩
abbrev S4096x8128 : Shape := ⟨2, ![4096, 8128]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 9
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S8128x4096, .f32⟩
  | .hbm, ⟨2, _⟩ => ⟨S4096x4096, .bf16⟩
  | .hbm, ⟨3, _⟩ => ⟨S8128x4096, .bf16⟩
  | .hbm, ⟨4, _⟩ => ⟨S_, .i32⟩
  | .hbm, ⟨5, _⟩ => ⟨S_, .bf16⟩
  | .hbm, ⟨6, _⟩ => ⟨S8192x4096, .bf16⟩
  | .hbm, ⟨7, _⟩ => ⟨S4096x8192, .f32⟩
  | .hbm, ⟨8, _⟩ => ⟨S4096x8128, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_c : Ref sig .tc := ⟨.hbm, 4, rfl⟩
abbrev main_call0_call0_v0 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  pads_S8128x4096_S8192x4096_0640_000 : S8128x4096.Pads (![0, 0] : Fin 2 → Nat) ![64, 0] ![0, 0] S8192x4096
  h_S_ : 0 < S_.numel
  slices_S4096x8192_S4096x8128_0_0 : S4096x8192.Slices ![0, 0] S4096x8128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .bf16 = 32 ∨ (Rect.block (s := S4096x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x4096.size a
  hwx0_1 : ∀ i : grid0.Coords, EltTy.bits .bf16 = 32 ∨ (Rect.block (s := S8192x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x8192.size a
  hwx0_2 : ∀ i : grid0.Coords, EltTy.bits .f32 = 32 ∨ (Rect.block (s := S4096x8192) S1024x2048.size (cc0_transform_2 i) (hinb0_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_call0_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S8128x4096 : Shape := ⟨2, ![8128, 4096]⟩
abbrev S4096x8128 : Shape := ⟨2, ![4096, 8128]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8128x4096, .f32⟩
  | .hbm, ⟨2, _⟩ => ⟨S4096x8128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S8128x4096_S4096x8128_1_1_0_0_n_n_wf : DotDims.WF S4096x4096 S8128x4096 S4096x8128 [1] [1] [0] [0] [] []

variable [Facts₀]

def dot_S4096x4096_S8128x4096_S4096x8128_1_1_0_0_n_n : DotDims S4096x4096 S8128x4096 S4096x8128 where
  lhsContracting := [1]
  rhsContracting := [1]
  lhsNonContracting := [0]
  rhsNonContracting := [0]
  lhsBatch := []
  rhsBatch := []
  wf := dot_S4096x4096_S8128x4096_S4096x8128_1_1_0_0_n_n_wf

class Facts : Prop extends Facts₀ where

variable [Facts]
-- ==== Proof.CaseValue.lean ====
/-
  What each control case of the body leaves behind, as values.

  The body has three cases over the grid's last coordinate `k`.  At `k = 0` it first stores the zero block into
  the carried accumulator, reads it back and stores the accumulated block: the accumulator ends at the body's
  accumulation of the zero block.  At `0 < k < 7` it accumulates onto what the point before left.  At `k = 7` it
  does the same and then copies the accumulator into the output block.  Each statement reads the one covering
  store's value back through whole-buffer loads (a load of a whole buffer is the buffer's contents; a load that
  an earlier covering store fills is that store's value).  All four hold for any float instance.
-/
import proofs.«148817_j3298534883714_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValue

open Cert.KernelIdeal Cert.KernelIdeal.Gen

variable {F : FTy → Type} [FloatOps F]

/-- A whole-buffer access starts at offset zero on both axes. -/
theorem hz : (![0, 0] : Fin 2 → Nat) = fun _ => 0 := funext fun a => by fin_cases a <;> rfl

/-- `k = 0`: the accumulator ends at the accumulation onto the zero block. -/
theorem acc_first (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1024x2048 .f32) (h5 : a5.IsWhole)
    (a6 : Memref sig .tc .vmem S1024x2048 .f32) (h6 : a6.IsWhole) (hc0 : cond0_0 i) (hc1 : ¬cond0_1 i)
    (x0 : Vec F S1024x512 .bf16) (x1 : Vec F S2048x512 .bf16) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x512) hz,
    View.ld_unit_zero (S := S2048x512) hz]

/-- `0 < k < 7`: the accumulator ends at the accumulation onto what the point before left. -/
theorem acc_middle (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : ¬cond0_1 i)
    (x0 : Vec F S1024x512 .bf16) (x1 : Vec F S2048x512 .bf16) (xs0 : Vec F S1024x2048 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz]
  simp only [View.readAt_eq_ld, h3.read_unread, h4.read_unread, h6.read_unread, View.ld_unit_zero (S := S1024x512) hz,
    View.ld_unit_zero (S := S2048x512) hz, View.ld_unit_zero (S := S1024x2048) hz]

/-- `k = 7`: the accumulator ends at the accumulation onto what the point before left … -/
theorem acc_last (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : cond0_1 i)
    (x0 : Vec F S1024x512 .bf16) (x1 : Vec F S2048x512 .bf16) (xs0 : Vec F S1024x2048 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x512) hz,
    View.ld_unit_zero (S := S2048x512) hz, View.ld_unit_zero (S := S1024x2048) hz]

/-- … and the output block is a copy of it. -/
theorem out_last (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : cond0_1 i)
    (x0 : Vec F S1024x512 .bf16) (x1 : Vec F S2048x512 .bf16) (xs0 : Vec F S1024x2048 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1024x2048) _ hz]
  simp only [View.readAt_eq_ld, h3.read_unread, h4.read_unread, h6.read_unread, View.ld_unit_zero (S := S1024x512) hz,
    View.ld_unit_zero (S := S2048x512) hz, View.ld_unit_zero (S := S1024x2048) hz]

end Cert.KernelIdeal.CaseValue

end
-- ==== Proof.PointValue.lean ====
/-
  The carried accumulator and the output block after each grid point, as the body's accumulation.

  The recursion over the grid's points that states what the accumulator holds after point `t` selects a control
  case by `t % 8`; with each case's value known, it reads: after a point with `t % 8 = 0` the accumulation of that
  point's two input blocks onto the zero block; after any other point the accumulation of that point's blocks
  onto what the point before left; and at `t % 8 = 7` the output block is the same value.  For any float instance.
-/
import proofs.«148817_j3298534883714_2_alg».proof.Proof.CaseValue

noncomputable section

open Idealize.ShloMosaic Idealize.ShloMosaic.TcCoe Idealize.SL.Sem

namespace Cert.KernelIdeal.PointValue

open Cert.KernelIdeal Cert.KernelIdeal.Gen

variable {F : FTy → Type} [FloatOps F]
variable (m : (ℓ : Loc nD τ sig) → Buf (Elt F) ℓ)

/-- After a point with `t % 8 = 0`: the point's blocks accumulated onto the zero block. -/
theorem acc_at_first (c : Dev nD) (t : Fin cfg0.N) (h0 : t.val % 8 = 0) (h1 : ¬t.val % 8 = 7) :
    (outsAt0 m c t.val t.isLt).2 = k0_pay2 (iblk m c 0 t) (iblk m c 1 t) k0_pay1 := by
  rw [outsAt0_A m c t h0 h1, CaseValue.acc_first]

/-- After a point with `0 < t % 8 < 7`: the point's blocks accumulated onto what the point before left. -/
theorem acc_at_middle (c : Dev nD) (t : Fin cfg0.N) (h0 : ¬t.val % 8 = 0) (h1 : ¬t.val % 8 = 7) :
    (outsAt0 m c t.val t.isLt).2
      = k0_pay2 (iblk m c 0 t) (iblk m c 1 t) (outsAt0 m c (t.val - 1) (Nat.lt_of_le_of_lt (Nat.sub_le _ _) t.isLt)).2 := by
  rw [outsAt0_B m c t h0 h1, CaseValue.acc_middle]

/-- After a point with `t % 8 = 7`: the same accumulation … -/
theorem acc_at_last (c : Dev nD) (t : Fin cfg0.N) (h0 : ¬t.val % 8 = 0) (h1 : t.val % 8 = 7) :
    (outsAt0 m c t.val t.isLt).2
      = k0_pay2 (iblk m c 0 t) (iblk m c 1 t) (outsAt0 m c (t.val - 1) (Nat.lt_of_le_of_lt (Nat.sub_le _ _) t.isLt)).2 := by
  rw [outsAt0_C m c t h0 h1, CaseValue.acc_last]

/-- … and the output block holds the accumulator's final value. -/
theorem out_at_last (c : Dev nD) (t : Fin cfg0.N) (h0 : ¬t.val % 8 = 0) (h1 : t.val % 8 = 7) :
    (outsAt0 m c t.val t.isLt).1 = (outsAt0 m c t.val t.isLt).2 := by
  rw [outsAt0_C m c t h0 h1, CaseValue.out_last, CaseValue.acc_last]

end Cert.KernelIdeal.PointValue

end
-- ==== Proof.LibRowDot.lean ====
/-
  Row products of two matrices, read by natural-number coordinates.

  An entry of a matrix is read at a pair of natural numbers, and is zero outside the matrix; the first `n`
  products of row `r` of `A` with row `s` of `B` are summed over `Finset.range n`.  Read this way a partial
  inner product grows one block of `L` products at a time (`rowDot_block`), starts at zero, and at the full
  width is the inner product of the two rows over `Fin K` (`rowDot_full`).  Addition of extended reals is
  commutative and associative, so no finiteness is needed anywhere here.
-/
import Idealize.ShloMosaic.PureOps.Ideal
import Idealize.ShloMosaic.Lib.ValueIdx

noncomputable section

open Idealize.ShloMosaic Idealize.ShloMosaic.ValueIdx
open scoped BigOperators

namespace Cert.MatSpec

/-- Entry `(r, l)` of an `R × K` matrix, read at natural numbers: zero outside the matrix. -/
def at2 {R K : Nat} (A : (⟨2, ![R, K]⟩ : Shape).Idx → EReal) (r l : Nat) : EReal :=
  if h : r < R ∧ l < K then A (ix2 ⟨r, h.1⟩ ⟨l, h.2⟩) else 0

/-- Inside the matrix the reading is the entry. -/
theorem at2_of_lt {R K : Nat} (A : (⟨2, ![R, K]⟩ : Shape).Idx → EReal) (r l : Nat) (hr : r < R) (hl : l < K) :
    at2 A r l = A (ix2 ⟨r, hr⟩ ⟨l, hl⟩) := by
  unfold at2
  rw [dif_pos ⟨hr, hl⟩]

/-- The sum of the first `n` products of row `r` of `A` with row `s` of `B`. -/
def rowDot {R S K : Nat} (A : (⟨2, ![R, K]⟩ : Shape).Idx → EReal) (B : (⟨2, ![S, K]⟩ : Shape).Idx → EReal)
    (r s n : Nat) : EReal :=
  ∑ l ∈ Finset.range n, at2 A r l * at2 B s l

/-- No product yet: zero. -/
theorem rowDot_zero {R S K : Nat} (A : (⟨2, ![R, K]⟩ : Shape).Idx → EReal) (B : (⟨2, ![S, K]⟩ : Shape).Idx → EReal)
    (r s : Nat) : rowDot A B r s 0 = 0 :=
  Finset.sum_range_zero _

/-- One more block of `L` products: the sum over `b + 1` blocks is the sum over `b` blocks plus the products
    at positions `L * b + kk`, `kk < L`. -/
theorem rowDot_block {R S K : Nat} (A : (⟨2, ![R, K]⟩ : Shape).Idx → EReal) (B : (⟨2, ![S, K]⟩ : Shape).Idx → EReal)
    (r s L b : Nat) :
    rowDot A B r s (L * (b + 1))
      = rowDot A B r s (L * b) + ∑ kk : Fin L, at2 A r (L * b + kk.val) * at2 B s (L * b + kk.val) := by
  unfold rowDot
  rw [show L * (b + 1) = L * b + L from by ring, Finset.sum_range_add,
    Finset.sum_range (fun x => at2 A r (L * b + x) * at2 B s (L * b + x))]

/-- All `K` products of two rows inside the matrices: the inner product of the rows. -/
theorem rowDot_full {R S K : Nat} (A : (⟨2, ![R, K]⟩ : Shape).Idx → EReal) (B : (⟨2, ![S, K]⟩ : Shape).Idx → EReal)
    (r : Fin R) (s : Fin S) :
    rowDot A B r.val s.val K = ∑ k : Fin K, A (ix2 r k) * B (ix2 s k) := by
  unfold rowDot
  rw [Finset.sum_range (fun l => at2 A r.val l * at2 B s.val l)]
  refine Finset.sum_congr rfl fun k _ => ?_
  rw [at2_of_lt A r.val k.val r.isLt k.isLt, at2_of_lt B s.val k.val s.isLt k.isLt]

/-- The partial sums only depend on the entries read: two pairs of matrices, of any sizes, whose readings agree
    along rows `r` and `s` have the same partial sums. -/
theorem rowDot_congr {R S K R' S' K' : Nat} (A : (⟨2, ![R, K]⟩ : Shape).Idx → EReal) (A' : (⟨2, ![R', K']⟩ : Shape).Idx → EReal)
    (B : (⟨2, ![S, K]⟩ : Shape).Idx → EReal) (B' : (⟨2, ![S', K']⟩ : Shape).Idx → EReal)
    (r s n : Nat) (hA : ∀ l, at2 A r l = at2 A' r l) (hB : ∀ l, at2 B s l = at2 B' s l) :
    rowDot A B r s n = rowDot A' B' r s n := by
  unfold rowDot
  exact Finset.sum_congr rfl fun l _ => by rw [hA l, hB l]

end Cert.MatSpec

end
-- ==== Proof.Operands.lean ====
/-
  The two operands as the kernel finds them, and the blocks its windows read.

  Before the kernel runs, the host rounds both arguments to bf16 (over the extended reals a change of format is
  the identity) and pads the second from 8128 to 8192 rows.  So the left operand is the first argument, and rows
  `s < 8128` of the right operand are the rows of the second argument.
  Grid point `t` of the `4 × 4 × 8` grid has coordinates `(t / 32, t / 8 % 4, t % 8)`: the left window's block there
  is rows `1024 * (t / 32) + p`, columns `512 * (t % 8) + kk` of the left operand; the right window's block is rows
  `2048 * (t / 8 % 4) + q`, the same columns, of the right operand; the output window's block is rows
  `1024 * (t / 32) + p`, columns `2048 * (t / 8 % 4) + q` of the result.
-/
import proofs.«148817_j3298534883714_2_alg».proof.Proof.Gen.KernelIdeal.Frame
import proofs.«148817_j3298534883714_2_alg».proof.Proof.LibRowDot
import Idealize.ShloMosaic.Lib.Pipeline.Value
import Idealize.ShloMosaic.Lib.StableHlo.Run
import Idealize.ShloMosaic.Lib.KernelVsHost
import Idealize.ShloMosaic.Lib.Tactic

noncomputable section

open Idealize.ShloMosaic Idealize.ShloMosaic.TcCoe Idealize.SL.Sem Idealize.ShloMosaic.ValueIdx

namespace Cert.KernelIdeal.Operands

open Cert.KernelIdeal Cert.KernelIdeal.Gen Cert.MatSpec

variable (m : (ℓ : Loc nD τ sig) → Buf (Elt Ideal) ℓ)

/-! ## The windows' index maps over the grid -/

/-- The left window's block index at point `t`: `(t / 32, t % 8)`. -/
theorem lhsIndex : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)

/-- The right window's block index at point `t`: `(t / 8 % 4, t % 8)`. -/
theorem rhsIndex : ∀ t : Fin cfg0.N, win0_1.index t (0 : Fin 2) = t.val / 8 % 4 ∧ win0_1.index t (1 : Fin 2) = t.val % 8 :=
  (by decide +kernel : ∀ t : Fin grid0.N, win0_1.index t (0 : Fin 2) = t.val / 8 % 4 ∧ win0_1.index t (1 : Fin 2) = t.val % 8)

/-- The output window's block index at point `t`: `(t / 32, t / 8 % 4)`. -/
theorem outIndex : ∀ t : Fin cfg0.N, win0_2.index t (0 : Fin 2) = t.val / 32 ∧ win0_2.index t (1 : Fin 2) = t.val / 8 % 4 :=
  (by decide +kernel : ∀ t : Fin grid0.N, win0_2.index t (0 : Fin 2) = t.val / 32 ∧ win0_2.index t (1 : Fin 2) = t.val / 8 % 4)

/-! ## The operands -/

/-- The left operand as the kernel finds it: the array its first window reads. -/
def lhsArr (c : Dev nD) : S4096x4096.Idx → EReal := V m c main_call0_v0

/-- The right operand as the kernel finds it: the array its second window reads. -/
def rhsArr (c : Dev nD) : S8192x4096.Idx → EReal := V m c main_call0_v2

/-- The left operand is the first argument (rounded to bf16: the identity on extended reals). -/
theorem lhsArr_eq (c : Dev nD) : lhsArr m c = (m ((c.tc : Thread nD τ).loc main_arg0) : S4096x4096.Idx → EReal) := by
  unfold lhsArr
  show StableHlo.after hostOps0 (fun b => m (c, b)) (Proc.devRef .tc main_call0_v0) = _
  after_results
  rfl

/-- The right operand is the second argument (rounded to bf16), padded by 64 rows below. -/
theorem rhsArr_eq (c : Dev nD) : rhsArr m c
    = pad S8192x4096 ![0, 0] ![64, 0] ![0, 0]
        (truncf .bf16 (m ((c.tc : Thread nD τ).loc main_arg1) : FVec Ideal S8128x4096 .f32) bitsLt_bf16_f32)
        (sitofp (F := Ideal) .bf16 (constantI S_ 32 0#32)) pads_S8128x4096_S8192x4096_0640_000 h_S_ := by
  unfold rhsArr
  show StableHlo.after hostOps0 (fun b => m (c, b)) (Proc.devRef .tc main_call0_v2) = _
  after_results
  rfl

/-- A row of the right operand above the padding is the second argument's row. -/
theorem rhsArr_apply (c : Dev nD) (s : Fin 8192) (l : Fin 4096) (hs : s.val < 8128) :
    rhsArr m c (ix2 s l) = (m ((c.tc : Thread nD τ).loc main_arg1) : S8128x4096.Idx → EReal) (ix2 ⟨s.val, hs⟩ l) := by
  rw [rhsArr_eq]
  refine (pad_apply_of_inside ![0, 0] ![64, 0] ![0, 0] _ _ pads_S8128x4096_S8192x4096_0640_000 h_S_ (ix2 s l)
    (ix2 ⟨s.val, hs⟩ l) (fun a => ?_)).trans rfl
  match a with
  | ⟨0, _⟩ => show s.val = 0 + s.val * (0 + 1); omega
  | ⟨1, _⟩ => show l.val = 0 + l.val * (0 + 1); omega

/-! ## The blocks the windows read -/

/-- The left block at point `t`, entry `(p, kk)`. -/
theorem lhsBlock_apply (c : Dev nD) (t : Fin cfg0.N) (p : Fin 1024) (kk : Fin 512) :
    (iblk m c 0 t : Vec Ideal S1024x512 .bf16) (ix2 p kk)
      = at2 (lhsArr m c) (1024 * (t.val / 32) + p.val) (512 * (t.val % 8) + kk.val) := by
  have hN : t.val < 128 := lt_of_lt_of_eq t.isLt (show cfg0.N = 128 from N_0)
  rw [at2_of_lt (lhsArr m c) _ _ (by omega) (by omega)]
  unfold iblk lhsArr
  rw [View.read_apply]
  show V m c main_call0_v0 _ = V m c main_call0_v0 _
  refine congrArg (V m c main_call0_v0) ?_
  funext a
  apply Fin.ext
  match a with
  | ⟨0, _⟩ => show win0_0.index t 0 * 1024 + 1 * p.val = 1024 * (t.val / 32) + p.val; rw [(lhsIndex t).1]; omega
  | ⟨1, _⟩ => show win0_0.index t 1 * 512 + 1 * kk.val = 512 * (t.val % 8) + kk.val; rw [(lhsIndex t).2]; omega

/-- The right block at point `t`, entry `(q, kk)`. -/
theorem rhsBlock_apply (c : Dev nD) (t : Fin cfg0.N) (q : Fin 2048) (kk : Fin 512) :
    (iblk m c 1 t : Vec Ideal S2048x512 .bf16) (ix2 q kk)
      = at2 (rhsArr m c) (2048 * (t.val / 8 % 4) + q.val) (512 * (t.val % 8) + kk.val) := by
  have hN : t.val < 128 := lt_of_lt_of_eq t.isLt (show cfg0.N = 128 from N_0)
  rw [at2_of_lt (rhsArr m c) _ _ (by omega) (by omega)]
  unfold iblk rhsArr
  rw [View.read_apply]
  show V m c main_call0_v2 _ = V m c main_call0_v2 _
  refine congrArg (V m c main_call0_v2) ?_
  funext a
  apply Fin.ext
  match a with
  | ⟨0, _⟩ => show win0_1.index t 0 * 2048 + 1 * q.val = 2048 * (t.val / 8 % 4) + q.val; rw [(rhsIndex t).1]; omega
  | ⟨1, _⟩ => show win0_1.index t 1 * 512 + 1 * kk.val = 512 * (t.val % 8) + kk.val; rw [(rhsIndex t).2]; omega

end Cert.KernelIdeal.Operands

end
-- ==== Proof.BodyValue.lean ====
/-
  The body's arithmetic at an index, over the extended reals.

  One grid point's body adds to the carried accumulator the product of its two input blocks, contracted over
  the blocks' shared second axis: entry `(p, q)` of what it stores is the accumulator's entry `(p, q)` plus
  `∑ kk, x0 (p, kk) * x1 (q, kk)` (the same-shape casts are identities, the product into the zero splat is the
  plain sum).  The block the first point of a run stores before accumulating is zero everywhere.
-/
import proofs.«148817_j3298534883714_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.BodyValue

open Cert.KernelIdeal Cert.KernelIdeal.Gen

/-- The product's left operand is read at the output's row … -/
theorem lhs_row (i : S1024x2048.Idx) (k : dot_S1024x512_S2048x512_S1024x2048_1_1_0_0_n_n.contr.Idx) :
    (dot_S1024x512_S2048x512_S1024x2048_1_1_0_0_n_n.lhsIdx i k 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl

/-- … and the contracted position; -/
theorem lhs_col (i : S1024x2048.Idx) (k : dot_S1024x512_S2048x512_S1024x2048_1_1_0_0_n_n.contr.Idx) :
    (dot_S1024x512_S2048x512_S1024x2048_1_1_0_0_n_n.lhsIdx i k 1).val = (k ⟨0, by decide⟩).val :=
  dot_S1024x512_S2048x512_S1024x2048_1_1_0_0_n_n.lhsIdx_val_of_single rfl i k

/-- the right operand at the output's column, as ITS row, … -/
theorem rhs_row (i : S1024x2048.Idx) (k : dot_S1024x512_S2048x512_S1024x2048_1_1_0_0_n_n.contr.Idx) :
    (dot_S1024x512_S2048x512_S1024x2048_1_1_0_0_n_n.rhsIdx i k 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl

/-- … and the contracted position. -/
theorem rhs_col (i : S1024x2048.Idx) (k : dot_S1024x512_S2048x512_S1024x2048_1_1_0_0_n_n.contr.Idx) :
    (dot_S1024x512_S2048x512_S1024x2048_1_1_0_0_n_n.rhsIdx i k 1).val = (k ⟨0, by decide⟩).val :=
  dot_S1024x512_S2048x512_S1024x2048_1_1_0_0_n_n.rhsIdx_val_of_single rfl i k

/-- The block product into the zero splat, at `(p, q)`: row `p` of the left block against row `q` of the right. -/
theorem blockDot_apply (x0 : FVec Ideal S1024x512 .bf16) (x1 : FVec Ideal S2048x512 .bf16) (p : Fin 1024) (q : Fin 2048) :
    matmul dot_S1024x512_S2048x512_S1024x2048_1_1_0_0_n_n none x0 x1 (constant S1024x2048 .f32 0x00000000#32) (ix2 p q)
      = ∑ kk : Fin 512, x0 (ix2 p kk) * x1 (ix2 q kk) := by
  simp only [matmul]
  rw [Ideal.matmul_constant_zero_apply,
    ← Equiv.sum_comp (contrEquiv1 dot_S1024x512_S2048x512_S1024x2048_1_1_0_0_n_n 512 rfl rfl).symm]
  refine Finset.sum_congr rfl fun kk _ => ?_
  have hk := contrEquiv1_symm_val dot_S1024x512_S2048x512_S1024x2048_1_1_0_0_n_n 512 rfl rfl kk
  have el : dot_S1024x512_S2048x512_S1024x2048_1_1_0_0_n_n.lhsIdx (ix2 p q)
      ((contrEquiv1 dot_S1024x512_S2048x512_S1024x2048_1_1_0_0_n_n 512 rfl rfl).symm kk) = ix2 p kk :=
    funext fun a => Fin.ext (by
      match a with
      | ⟨0, _⟩ => exact lhs_row _ _
      | ⟨1, _⟩ => exact (lhs_col _ _).trans hk)
  have er : dot_S1024x512_S2048x512_S1024x2048_1_1_0_0_n_n.rhsIdx (ix2 p q)
      ((contrEquiv1 dot_S1024x512_S2048x512_S1024x2048_1_1_0_0_n_n 512 rfl rfl).symm kk) = ix2 q kk :=
    funext fun a => Fin.ext (by
      match a with
      | ⟨0, _⟩ => exact rhs_row _ _
      | ⟨1, _⟩ => exact (rhs_col _ _).trans hk)
  rw [el, er]

/-- What a point stores into the accumulator, at `(p, q)`: the accumulator there plus the blocks' row product. -/
theorem accumulate_apply (x0 : Vec Ideal S1024x512 .bf16) (x1 : Vec Ideal S2048x512 .bf16) (acc : Vec Ideal S1024x2048 .f32)
    (p : Fin 1024) (q : Fin 2048) :
    k0_pay2 (F := Ideal) x0 x1 acc (ix2 p q) = acc (ix2 p q) + ∑ kk : Fin 512, x0 (ix2 p kk) * x1 (ix2 q kk) := by
  unfold k0_pay2
  rw [shapeCast_self, shapeCast_self, shapeCast_self, addf_apply]
  exact congrArg (acc (ix2 p q) + ·) (blockDot_apply x0 x1 p q)

/-- The block a run's first point stores first is zero everywhere. -/
theorem zeroBlock_apply (i : S1024x2048.Idx) : k0_pay1 (F := Ideal) i = 0 := by
  unfold k0_pay1
  rw [shapeCast_self, broadcast_apply]
  exact Ideal.ofBits_zero_f32

end Cert.KernelIdeal.BodyValue

end
-- ==== Proof.Accum.lean ====
/-
  The carried accumulator after every grid point, entry by entry.

  Points `8 g, …, 8 g + 7` of the grid share one output block (rows `1024 * (t / 32) + p` of the left operand against
  rows `2048 * (t / 8 % 4) + q` of the right) and walk the contracted axis in eight blocks of 512 columns.  By
  induction on the point: after point `n` entry `(p, q)` of the accumulator is the sum of the first
  `512 * (n % 8 + 1)` products of those two rows — a point with `n % 8 = 0` starts from the zero block, every other
  point adds its block of 512 products to what the point before left, and within a run of eight points the rows
  do not change.
-/
import proofs.«148817_j3298534883714_2_alg».proof.Proof.PointValue
import proofs.«148817_j3298534883714_2_alg».proof.Proof.Operands
import proofs.«148817_j3298534883714_2_alg».proof.Proof.BodyValue

noncomputable section

open Idealize.ShloMosaic Idealize.ShloMosaic.TcCoe Idealize.SL.Sem Idealize.ShloMosaic.ValueIdx
open scoped BigOperators

namespace Cert.KernelIdeal.Accum

open Cert.KernelIdeal Cert.KernelIdeal.Gen Cert.MatSpec Cert.KernelIdeal.Operands

variable (m : (ℓ : Loc nD τ sig) → Buf (Elt Ideal) ℓ)

/-- One point's accumulation at `(p, q)`: what it was handed there plus the point's 512 products of the two rows,
    read off the operands. -/
theorem point_apply (c : Dev nD) (n : ℕ) (h : n < cfg0.N) (acc : Vec Ideal S1024x2048 .f32) (p : Fin 1024) (q : Fin 2048) :
    k0_pay2 (F := Ideal) (iblk m c 0 ⟨n, h⟩) (iblk m c 1 ⟨n, h⟩) acc (ix2 p q)
      = acc (ix2 p q) + ∑ kk : Fin 512, at2 (lhsArr m c) (1024 * (n / 32) + p.val) (512 * (n % 8) + kk.val)
          * at2 (rhsArr m c) (2048 * (n / 8 % 4) + q.val) (512 * (n % 8) + kk.val) :=
  (BodyValue.accumulate_apply (iblk m c 0 ⟨n, h⟩) (iblk m c 1 ⟨n, h⟩) acc p q).trans
    (congrArg (acc (ix2 p q) + ·) (Finset.sum_congr rfl fun kk _ => by
      rw [lhsBlock_apply m c ⟨n, h⟩ p kk, rhsBlock_apply m c ⟨n, h⟩ q kk]))

/-- After the first point of a run of eight: the first 512 products. -/
theorem acc_first_apply (c : Dev nD) (n : ℕ) (h : n < cfg0.N) (h0 : n % 8 = 0) (p : Fin 1024) (q : Fin 2048) :
    (outsAt0 m c n h).2 (ix2 p q)
      = rowDot (lhsArr m c) (rhsArr m c) (1024 * (n / 32) + p.val) (2048 * (n / 8 % 4) + q.val) (512 * (n % 8 + 1)) := by
  refine (congrFun (PointValue.acc_at_first m c ⟨n, h⟩ h0 (by dsimp only; omega)) (ix2 p q)).trans ?_
  refine (point_apply m c n h (k0_pay1 (F := Ideal)) p q).trans ?_
  rw [BodyValue.zeroBlock_apply, zero_add, h0, rowDot_block, Nat.mul_zero, rowDot_zero]
  exact (zero_add _).symm

/-- After every point: the first `512 * (n % 8 + 1)` products of the point's two rows. -/
theorem acc_apply (c : Dev nD) : ∀ (n : ℕ) (h : n < cfg0.N) (p : Fin 1024) (q : Fin 2048),
    (outsAt0 m c n h).2 (ix2 p q)
      = rowDot (lhsArr m c) (rhsArr m c) (1024 * (n / 32) + p.val) (2048 * (n / 8 % 4) + q.val) (512 * (n % 8 + 1)) := by
  intro n
  induction n with
  | zero => exact fun h p q => acc_first_apply m c 0 h rfl p q
  | succ n ih =>
    intro h p q
    by_cases h0 : (n + 1) % 8 = 0
    · exact acc_first_apply m c (n + 1) h h0 p q
    · have e : (outsAt0 m c (n + 1) h).2
          = k0_pay2 (iblk m c 0 ⟨n + 1, h⟩) (iblk m c 1 ⟨n + 1, h⟩) (outsAt0 m c n (Nat.lt_of_succ_lt h)).2 := by
        by_cases h1 : (n + 1) % 8 = 7
        · exact PointValue.acc_at_last m c ⟨n + 1, h⟩ h0 h1
        · exact PointValue.acc_at_middle m c ⟨n + 1, h⟩ h0 h1
      refine (congrFun e (ix2 p q)).trans ?_
      refine (point_apply m c (n + 1) h _ p q).trans ?_
      rw [ih (Nat.lt_of_succ_lt h) p q]
      have e1 : (n + 1) / 32 = n / 32 := by omega
      have e2 : (n + 1) / 8 % 4 = n / 8 % 4 := by omega
      have e3 : (n + 1) % 8 = n % 8 + 1 := by omega
      rw [e1, e2, e3]
      exact (rowDot_block (lhsArr m c) (rhsArr m c) _ _ 512 (n % 8 + 1)).symm

end Cert.KernelIdeal.Accum

end
-- ==== Proof.Result.lean ====
/-
  The kernel's result array.

  The product of the operands as the kernel finds them is the `4096 × 8192` matrix whose entry `(r, s)` is the
  full-width row product of row `r` of the left operand with row `s` of the right.  The output window writes a
  block back only at the last point of each run of eight; that point's block is rows `1024 * (t / 32) + p`, columns
  `2048 * (t / 8 % 4) + q`, and the accumulator then holds all `512 * 8 = 4096` products, so what is written back
  is the product read through the block.  The sixteen written blocks tile the matrix (entry `(r, s)` lies in the
  block of point `32 * (r / 1024) + 8 * (s / 2048) + 7`), so the output array ends holding the product.  After the
  kernel the host keeps columns `s < 8128`, where the right operand's rows are the second argument's rows: the
  program's result at `(r, s)` is the row product of the two ARGUMENTS.
-/
import proofs.«148817_j3298534883714_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.MatSpec Cert.KernelIdeal.Operands

variable (m : (ℓ : Loc nD τ sig) → Buf (Elt Ideal) ℓ) (ρ : Dev nD → PrngReg)

/-- The product of the operands as the kernel finds them, as contents of the kernel's output array. -/
def product (c : Dev nD) : Buf (Elt Ideal) ((c.tc : Thread nD τ).loc main_call0_v3) :=
  fun i : S4096x8192.Idx => rowDot (lhsArr m c) (rhsArr m c) (i 0).val (i 1).val 4096

/-- After a point the accumulator at any index of the block. -/
theorem acc_at (c : Dev nD) (n : ℕ) (h : n < cfg0.N) (y : S1024x2048.Idx) :
    (outsAt0 m c n h).2 y
      = rowDot (lhsArr m c) (rhsArr m c) (1024 * (n / 32) + (y 0).val) (2048 * (n / 8 % 4) + (y 1).val) (512 * (n % 8 + 1)) :=
  (congrArg (outsAt0 m c n h).2 (eq_ix2 y)).trans (Accum.acc_apply m c n h (y 0) (y 1))

/-- What a writing point writes back is the product read through the point's block. -/
theorem flushed_eq (c : Dev nD) (t : Fin cfg0.N) (hf : (cfg0.win 2).flush t = true) :
    (dats m 0 c).flushed 2 t = ((cfg0.win 2).blk t).view.read (Elt Ideal) (product m c) := by
  have h7 : t.val % 8 = 7 := (flush0_2 t).mp hf
  show (cfg0.win 2).cut (grid0.coords t) ((dats m 0 c).after 2 t) = _
  rw [after0_2, PointValue.out_at_last m c t (by omega) h7]
  funext y
  refine (acc_at m c t.val t.isLt y).trans ?_
  show _ = rowDot (lhsArr m c) (rhsArr m c) (win0_2.index t 0 * 1024 + 1 * (y 0).val) (win0_2.index t 1 * 2048 + 1 * (y 1).val) 4096
  rw [(outIndex t).1, (outIndex t).2, h7,
    show 1024 * (t.val / 32) + (y 0).val = t.val / 32 * 1024 + 1 * (y 0).val from by omega,
    show 2048 * (t.val / 8 % 4) + (y 1).val = t.val / 8 % 4 * 2048 + 1 * (y 1).val from by omega]

/-- An entry is in point `t`'s block iff each coordinate is in the block's range on its axis. -/
theorem mem_block (t : Fin cfg0.N) (i : S4096x8192.Idx) :
    i ∈ ((cfg0.win 2).blk t).view.set
      ↔ ∀ a : Fin 2, win0_2.index t a * S1024x2048.size a ≤ (i a).val
          ∧ (i a).val < win0_2.index t a * S1024x2048.size a + S1024x2048.size a := by
  show i ∈ ((View.whole main_call0_v3).slice (win0_2.rect t)).set ↔ _
  rw [View.set_slice_whole, Rect.mem_set_unit]
  exact Iff.rfl

/-- Every entry of the output array is in some writing point's block. -/
theorem cover (i : S4096x8192.Idx) :
    ∃ t : Fin cfg0.N, (cfg0.win 2).flush t = true ∧ i ∈ ((cfg0.win 2).blk t).view.set := by
  have hi0 : (i 0).val < 4096 := idx2_lt0 i
  have hi1 : (i 1).val < 8192 := idx2_lt1 i
  have hN : cfg0.N = 128 := N_0
  have ht : 32 * ((i 0).val / 1024) + 8 * ((i 1).val / 2048) + 7 < cfg0.N := by omega
  refine ⟨⟨_, ht⟩, (flush0_2 _).mpr (by dsimp only; omega), ?_⟩
  rw [mem_block]
  intro a
  match a with
  | ⟨0, _⟩ =>
    show win0_2.index ⟨_, ht⟩ (0 : Fin 2) * 1024 ≤ (i 0).val
      ∧ (i 0).val < win0_2.index ⟨_, ht⟩ (0 : Fin 2) * 1024 + 1024
    rw [(outIndex ⟨_, ht⟩).1]
    dsimp only
    omega
  | ⟨1, _⟩ =>
    show win0_2.index ⟨_, ht⟩ (1 : Fin 2) * 2048 ≤ (i 1).val
      ∧ (i 1).val < win0_2.index ⟨_, ht⟩ (1 : Fin 2) * 2048 + 2048
    rw [(outIndex ⟨_, ht⟩).2]
    dsimp only
    omega

/-- The output array ends holding the product. -/
theorem final (c : Dev nD) : (dats m 0 c).arrAt 2 cfg0.N = product m c :=
  (dats m 0 c).arrAt_eq_of_cover 2 (product m c) (flushed_eq m c) cover

/-- The program's result: the first 8128 columns of the product. -/
def result (c : Dev nD) : Buf (Elt Ideal) ((c.tc : Thread nD τ).loc main_v0) :=
  extractStridedSlice S4096x8128 ![0, 0] (product m c) slices_S4096x8192_S4096x8128_0_0

/-- The host's slice of the output array after the kernel is that result. -/
theorem tail_eq (c : Dev nD) :
    Pipeline.afterTail₀ cfgs (dats m) 0 (V0 m) [hostOps1] c main_v0 = result m c := by
  unfold result
  unfold Pipeline.afterTail₀
  show StableHlo.after hostOps1 _ (Proc.devRef .tc main_v0) = _
  after_results
  exact congrArg (fun x => extractStridedSlice S4096x8128 ![0, 0] x slices_S4096x8192_S4096x8128_0_0)
    ((Pipeline.withArrays_arr spec0 launch0.win.arr_inj c (V0 m c) (fun w => (dats m 0 c).arrAt w cfg0.N) 2).trans (final m c))

/-- Entry `(r, s)` of the program's result: the full-width row product of row `r` of the first argument with row
    `s` of the second (the left operand is the first argument; a row of the right operand above the padding is
    the second argument's row). -/
theorem result_apply (c : Dev nD) (r : Fin 4096) (s : Fin 8128) :
    result m c (ix2 r s)
      = rowDot (m ((c.tc : Thread nD τ).loc main_arg0) : S4096x4096.Idx → EReal)
          (m ((c.tc : Thread nD τ).loc main_arg1) : S8128x4096.Idx → EReal) r.val s.val 4096 := by
  have hs : s.val < 8192 := by omega
  unfold result
  refine (extractStridedSlice_apply ![0, 0] (product m c) slices_S4096x8192_S4096x8128_0_0 (ix2 r s)
    (ix2 r ⟨s.val, hs⟩) (fun a => ?_)).trans ?_
  · match a with
    | ⟨0, _⟩ => show r.val = 0 + r.val; omega
    | ⟨1, _⟩ => show s.val = 0 + s.val; omega
  · show rowDot (lhsArr m c) (rhsArr m c) r.val s.val 4096 = _
    refine rowDot_congr _ _ _ _ _ _ _ (fun l => by rw [lhsArr_eq]) (fun l => ?_)
    unfold at2
    by_cases hl : l < 4096
    · rw [dif_pos ⟨hs, hl⟩, dif_pos ⟨s.isLt, hl⟩]
      exact rhsArr_apply m c ⟨s.val, hs⟩ ⟨l, hl⟩ s.isLt
    · rw [dif_neg (fun h => hl h.2), dif_neg (fun h => hl h.2)]

/-- The run, read: every weakly fair execution terminates with the result array at the first 8128 columns of the
    product and the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference at an index: the inner product of a row of each argument.

  The reference is one contraction of the second axes of its two arguments, so over the extended reals entry
  `(r, s)` of its result is `∑ k, x0 (r, k) * x1 (s, k)` — the full-width row product of the two matrices.
-/
import proofs.«148817_j3298534883714_2_alg».proof.Proof.Gen.ReferenceIdeal.Read
import proofs.«148817_j3298534883714_2_alg».proof.Proof.LibRowDot

noncomputable section

open Idealize.ShloMosaic Idealize.ShloMosaic.ValueIdx
open scoped BigOperators

namespace Cert.ReferenceIdeal.RefValue

open Cert.ReferenceIdeal Cert.ReferenceIdeal.Gen Cert.ReferenceIdeal.Read Cert.MatSpec

/-- Entry `(r, s)` of the reference's result is the row product of row `r` of the first argument with row `s`
    of the second, over all 4096 columns. -/
theorem result_apply (x0 : S4096x4096.Idx → EReal) (x1 : S8128x4096.Idx → EReal) (r : Fin 4096) (s : Fin 8128) :
    val_main_v0 (F := Ideal) x0 x1 (ix2 r s) = rowDot x0 x1 r.val s.val 4096 := by
  rw [val_main_v0_apply, rowDot_full x0 x1 r s]
  refine Finset.sum_congr rfl fun k _ => ?_
  have el : lidx_main_v0 (ix2 r s) k = ix2 r k :=
    funext fun a => Fin.ext (by match a with | ⟨0, _⟩ => rfl | ⟨1, _⟩ => rfl)
  have er : ridx_main_v0 (ix2 r s) k = ix2 s k :=
    funext fun a => Fin.ext (by match a with | ⟨0, _⟩ => rfl | ⟨1, _⟩ => rfl)
  rw [el, er]

end Cert.ReferenceIdeal.RefValue

end
-- ==== Proof.lean ====
/-
  The kernel computes `input_state @ passage_matrix.T` by tiles: it rounds both arguments to bf16, pads the second
  from 8128 to 8192 rows with zeros, walks a `4 × 4 × 8` grid whose last axis cuts the contracted axis into eight
  blocks of 512 columns, accumulates each block's product into a carried accumulator (zeroed at the first block,
  copied to the output block at the last), and finally keeps the first 8128 columns.  The reference is the one
  contraction `einsum('bi,oi->bo')`.

  Over the extended reals a change of float format is the identity and a block product is a plain sum, so after
  block `k` the accumulator's entry is the sum of the first `512 * (k + 1)` products of a row of the first argument
  with a row of the (padded) second; after the eighth block that is the whole inner product.  The sixteen output
  blocks tile the `4096 × 8192` product, and the kept columns read rows of the second argument itself.  The
  reference's entry is the same inner product.  Only commutativity and associativity of addition of extended reals
  are used, so the precondition is never opened.

  The three frame claims are the generated frame runs (the reference's is its generated run with the result
  dropped); the ideal pass rewrote nothing, so the idealization claim is trivial.
-/
import proofs.«148817_j3298534883714_2_alg».proof.Defs
import proofs.«148817_j3298534883714_2_alg».proof.Proof.Gen.Kernel
import proofs.«148817_j3298534883714_2_alg».proof.Proof.Gen.Kernel.Skeleton
import proofs.«148817_j3298534883714_2_alg».proof.Proof.Gen.Kernel.Launch
import proofs.«148817_j3298534883714_2_alg».proof.Proof.Gen.Kernel.Points
import proofs.«148817_j3298534883714_2_alg».proof.Proof.Gen.Kernel.Frame
import proofs.«148817_j3298534883714_2_alg».proof.Proof.Gen.KernelIdeal
import proofs.«148817_j3298534883714_2_alg».proof.Proof.Gen.KernelIdeal.Skeleton
import proofs.«148817_j3298534883714_2_alg».proof.Proof.Gen.KernelIdeal.Launch
import proofs.«148817_j3298534883714_2_alg».proof.Proof.Gen.KernelIdeal.Points
import proofs.«148817_j3298534883714_2_alg».proof.Proof.Gen.KernelIdeal.Frame
import proofs.«148817_j3298534883714_2_alg».proof.Proof.Gen.ReferenceIdeal
import proofs.«148817_j3298534883714_2_alg».proof.Proof.Gen.ReferenceIdeal.Run
import proofs.«148817_j3298534883714_2_alg».proof.Proof.Gen.ReferenceIdeal.Read
import proofs.«148817_j3298534883714_2_alg».proof.Proof.Gen.Pre_finite_inputs
import proofs.«148817_j3298534883714_2_alg».proof.Proof.Result
import proofs.«148817_j3298534883714_2_alg».proof.Proof.RefValue
import Idealize.ShloMosaic.Adequacy
import Idealize.ShloMosaic.Init

noncomputable section

namespace Cert.Proof

open Idealize.ShloMosaic Idealize.ShloMosaic.ValueIdx Idealize.SL.Sem

/-- The printed kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with, at `(r, s)`, the inner product of row `r` of the first argument with row `s` of the
    second. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  funext i
  obtain ⟨r, s, rfl⟩ : ∃ (r : Fin 4096) (s : Fin 8128), i = ix2 r s := ⟨i 0, i 1, eq_ix2 i⟩
  exact (Cert.ReferenceIdeal.RefValue.result_apply _ _ r s).trans (Cert.KernelIdeal.Result.result_apply m c r s).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
